-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x16 : Shape := ⟨2, ![512, 16]⟩
abbrev S16 : Shape := ⟨1, ![16]⟩
abbrev S16x1 : Shape := ⟨2, ![16, 1]⟩
abbrev S1 : Shape := ⟨1, ![1]⟩
abbrev S2x3200000 : Shape := ⟨2, ![2, 3200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x512 .f32) (main_arg1 : FVec F S512x16 .f32) (main_arg2 : FVec F S16 .f32) (main_arg3 : FVec F S16x1 .f32) (main_arg4 : FVec F S1 .f32) (main_arg5 : IVec S2x3200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg3
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg4 main_v13 main_v16
-- ==== Kernel.lean ====
abbrev S100000x512 : Shape := ⟨2, ![100000, 512]⟩
abbrev S512x16 : Shape := ⟨2, ![512, 16]⟩
abbrev S16 : Shape := ⟨1, ![16]⟩
abbrev S16x1 : Shape := ⟨2, ![16, 1]⟩
abbrev S1 : Shape := ⟨1, ![1]⟩
abbrev S2x3200000 : Shape := ⟨2, ![2, 3200000]⟩
abbrev S1x3200000 : Shape := ⟨2, ![1, 3200000]⟩
abbrev S3200000 : Shape := ⟨1, ![3200000]⟩
abbrev S100000x16 : Shape := ⟨2, ![100000, 16]⟩
abbrev S5000x512 : Shape := ⟨2, ![5000, 512]⟩
abbrev S5000x16 : Shape := ⟨2, ![5000, 16]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x1 : Shape := ⟨2, ![100000, 1]⟩
abbrev S5000x1 : Shape := ⟨2, ![5000, 1]⟩
abbrev S1x1 : Shape := ⟨2, ![1, 1]⟩

abbrev nBuf : Space → Nat
  | .hbm => 119
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x1, .f32⟩
  | .hbm, ⟨4, _⟩ => ⟨S1, .f32⟩
  | .hbm, ⟨5, _⟩ => ⟨S2x3200000, .i32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x16, .f32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x1, .f32⟩
  | .hbm, ⟨66, _⟩ => ⟨S100000, .i32⟩
  | .hbm, ⟨67, _⟩ => ⟨S3300000, .i32⟩
  | .hbm, ⟨68, _⟩ => ⟨S3300000, .i32⟩
  | .hbm, ⟨69, _⟩ => ⟨S_, .f32⟩
  | .hbm, ⟨70, _⟩ => ⟨S3300000, .f32⟩
  | .hbm, ⟨71, _⟩ => ⟨S_, .f32⟩
  | .hbm, ⟨72, _⟩ => ⟨S100000, .f32⟩
  | .hbm, ⟨73, _⟩ => ⟨S3300000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .i1⟩
  | .hbm, ⟨78, _⟩ => ⟨S100000, .f32⟩
  | .hbm, ⟨79, _⟩ => ⟨S_, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S_, .i32⟩
  | .hbm, ⟨84, _⟩ => ⟨S3300000, .i32⟩
  | .hbm, ⟨85, _⟩ => ⟨S3300000, .i1⟩
  | .hbm, ⟨86, _⟩ => ⟨S_, .i32⟩
  | .hbm, ⟨87, _⟩ => ⟨S3300000, .i32⟩
  | .hbm, ⟨88, _⟩ => ⟨S3300000, .i32⟩
  | .hbm, ⟨89, _⟩ => ⟨S3300000, .i32⟩
  | .hbm, ⟨90, _⟩ => ⟨S3300000x1, .i32⟩
  | .hbm, ⟨91, _⟩ => ⟨S3300000, .f32⟩
  | .hbm, ⟨92, _⟩ => ⟨S_, .i32⟩
  | .hbm, ⟨93, _⟩ => ⟨S3300000, .i32⟩
  | .hbm, ⟨94, _⟩ => ⟨S3300000, .i1⟩
  | .hbm, ⟨95, _⟩ => ⟨S_, .i32⟩
  | .hbm, ⟨96, _⟩ => ⟨S3300000, .i32⟩
  | .hbm, ⟨97, _⟩ => ⟨S3300000, .i32⟩
  | .hbm, ⟨98, _⟩ => ⟨S3300000, .i32⟩
  | .hbm, ⟨99, _⟩ => ⟨S3300000x1, .i32⟩
  | .hbm, ⟨100, _⟩ => ⟨S3300000, .f32⟩
  | .hbm, ⟨101, _⟩ => ⟨S3300000, .f32⟩
  | .hbm, ⟨102, _⟩ => ⟨S_, .i32⟩
  | .hbm, ⟨103, _⟩ => ⟨S3300000, .i32⟩
  | .hbm, ⟨104, _⟩ => ⟨S3300000, .i1⟩
  | .hbm, ⟨105, _⟩ => ⟨S_, .i32⟩
  | .hbm, ⟨106, _⟩ => ⟨S3300000, .i32⟩
  | .hbm, ⟨107, _⟩ => ⟨S3300000, .i32⟩
  | .hbm, ⟨108, _⟩ => ⟨S3300000, .i32⟩
  | .hbm, ⟨109, _⟩ => ⟨S3300000x1, .i32⟩
  | .hbm, ⟨110, _⟩ => ⟨S3300000x1, .f32⟩
  | .hbm, ⟨111, _⟩ => ⟨S3300000x1, .f32⟩
  | .hbm, ⟨112, _⟩ => ⟨S3300000x1, .f32⟩
  | .hbm, ⟨113, _⟩ => ⟨S_, .f32⟩
  | .hbm, ⟨114, _⟩ => ⟨S100000x1, .f32⟩
  | .hbm, ⟨115, _⟩ => ⟨S3300000x1, .i32⟩
  | .hbm, ⟨116, _⟩ => ⟨S100000x1, .f32⟩
  | .hbm, ⟨117, _⟩ => ⟨S1x1, .f32⟩
  | .hbm, ⟨118, _⟩ => ⟨S100000x1, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S16x1, .f32⟩
  | .local _ .vmem, ⟨13, _⟩ => ⟨S5000x1, .f32⟩
  | .local _ .vmem, ⟨14, _⟩ => ⟨S5000x1, .f32⟩
  | .local _ .vmem, ⟨15, _⟩ => ⟨S5000x1, .f32⟩
  | .local _ .vmem, ⟨16, _⟩ => ⟨S5000x1, .f32⟩
  | .local _ .vmem, ⟨17, _⟩ => ⟨S1x1, .f32⟩
  | .local _ .vmem, ⟨18, _⟩ => ⟨S5000x1, .f32⟩
  | .local _ .vmem, ⟨19, _⟩ => ⟨S5000x1, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_call1_v0 : Ref sig .tc := ⟨.hbm, 80, rfl⟩
abbrev main_call1_v1 : Ref sig .tc := ⟨.hbm, 81, rfl⟩
abbrev main_v57 : Ref sig .tc := ⟨.hbm, 82, rfl⟩
abbrev main_c_13 : Ref sig .tc := ⟨.hbm, 83, rfl⟩
abbrev main_v58 : Ref sig .tc := ⟨.hbm, 84, rfl⟩
abbrev main_v59 : Ref sig .tc := ⟨.hbm, 85, rfl⟩
abbrev main_c_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_c_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_17 : Ref sig .tc := ⟨.hbm, 102, rfl⟩
abbrev main_v73 : Ref sig .tc := ⟨.hbm, 103, rfl⟩
abbrev main_v74 : Ref sig .tc := ⟨.hbm, 104, rfl⟩
abbrev main_c_18 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_19 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x1_S16x1_0_0 : ∀ a, (![0, 0] : Fin 2 → Nat) a + S16x1.size a ≤ S16x1.size a
  h_S16x1 : 0 < S16x1.numel
  inb_S5000x1_S5000x1_0_0 : ∀ a, (![0, 0] : Fin 2 → Nat) a + S5000x1.size a ≤ S5000x1.size a
  h_S5000x1 : 0 < S5000x1.numel
  bcast_S_S100000x1 : S_.BroadcastsInDim S100000x1 (![] : Fin 0 → Fin S100000x1.rank)
  shapeCasts_S1_S1x1 : S1.ShapeCasts S1x1
  shapeCasts_S5000x1_S5000x1 : S5000x1.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  dot_S5000x512_S512x16_S5000x16_1_0_0_1_n_n_wf : DotDims.WF S5000x512 S512x16 S5000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x1_S5000x1_1_0_0_1_n_n_wf : DotDims.WF S5000x16 S16x1 S5000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x1.size a ≤ S16x1.size a
  hwx2_1 : ∀ i : grid2.Coords, EltTy.bits .f32 = 32 ∨ (Rect.block (s := S16x1) S16x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x1.size a ≤ S100000x1.size a
  hwx3_0 : ∀ i : grid3.Coords, EltTy.bits .f32 = 32 ∨ (Rect.block (s := S100000x1) S5000x1.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1.size a ≤ S1x1.size a
  hwx3_1 : ∀ i : grid3.Coords, EltTy.bits .f32 = 32 ∨ (Rect.block (s := S1x1) S1x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)

variable [Facts₀]

def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x1_S5000x1_1_0_0_1_n_n : DotDims S5000x16 S16x1 S5000x1 where
  lhsContracting := [1]
  rhsContracting := [0]
  lhsNonContracting := [0]
  rhsNonContracting := [1]
  lhsBatch := []
  rhsBatch := []
  wf := dot_S5000x16_S16x1_S5000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S16x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v84) S5000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S1x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v86) S5000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S512x16 : Shape := ⟨2, ![512, 16]⟩
abbrev S16 : Shape := ⟨1, ![16]⟩
abbrev S16x1 : Shape := ⟨2, ![16, 1]⟩
abbrev S1 : Shape := ⟨1, ![1]⟩
abbrev S2x3200000 : Shape := ⟨2, ![2, 3200000]⟩
abbrev S1x3200000 : Shape := ⟨2, ![1, 3200000]⟩
abbrev S3200000 : Shape := ⟨1, ![3200000]⟩
abbrev S100000x16 : Shape := ⟨2, ![100000, 16]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 132
  | .vmem => 0
  | .smem => 0
  | _ => 0

abbrev hbmTy0_0 (i : Nat) : BufTy := match i % 128 with
  | 0 => ⟨S100000x512, .f32⟩
  | 1 => ⟨S512x16, .f32⟩
  | 2 => ⟨S16, .f32⟩
  | 3 => ⟨S16x1, .f32⟩
  | 4 => ⟨S1, .f32⟩
  | 5 => ⟨S2x3200000, .i32⟩
  | 6 => ⟨S1x3200000, .i32⟩
  | 7 => ⟨S3200000, .i32⟩
  | 8 => ⟨S1x3200000, .i32⟩
  | 9 => ⟨S3200000, .i32⟩
  | 10 => ⟨S100000x16, .f32⟩
  | 11 => ⟨S100000, .i32⟩
  | 12 => ⟨S3300000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x1, .f32⟩
  | 70 => ⟨S100000, .i32⟩
  | 71 => ⟨S3300000, .i32⟩
  | 72 => ⟨S3300000, .i32⟩
  | 73 => ⟨S_, .f32⟩
  | 74 => ⟨S3300000, .f32⟩
  | 75 => ⟨S_, .f32⟩
  | 76 => ⟨S100000, .f32⟩
  | 77 => ⟨S3300000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S3300000, .i32⟩
  | 89 => ⟨S3300000, .i1⟩
  | 90 => ⟨S_, .i32⟩
  | 91 => ⟨S3300000, .i32⟩
  | 92 => ⟨S3300000, .i32⟩
  | 93 => ⟨S3300000, .i32⟩
  | 94 => ⟨S3300000x1, .i32⟩
  | 95 => ⟨S3300000, .f32⟩
  | 96 => ⟨S_, .i32⟩
  | 97 => ⟨S3300000, .i32⟩
  | 98 => ⟨S3300000, .i1⟩
  | 99 => ⟨S_, .i32⟩
  | 100 => ⟨S3300000, .i32⟩
  | 101 => ⟨S3300000, .i32⟩
  | 102 => ⟨S3300000, .i32⟩
  | 103 => ⟨S3300000x1, .i32⟩
  | 104 => ⟨S3300000, .f32⟩
  | 105 => ⟨S3300000, .f32⟩
  | 106 => ⟨S_, .i32⟩
  | 107 => ⟨S3300000, .i32⟩
  | 108 => ⟨S3300000, .i1⟩
  | 109 => ⟨S_, .i32⟩
  | 110 => ⟨S3300000, .i32⟩
  | 111 => ⟨S3300000, .i32⟩
  | 112 => ⟨S3300000, .i32⟩
  | 113 => ⟨S3300000x1, .i32⟩
  | 114 => ⟨S3300000x1, .f32⟩
  | 115 => ⟨S3300000x1, .f32⟩
  | 116 => ⟨S3300000x1, .f32⟩
  | 117 => ⟨S_, .f32⟩
  | 118 => ⟨S100000x1, .f32⟩
  | 119 => ⟨S3300000x1, .i32⟩
  | 120 => ⟨S100000x1, .f32⟩
  | 121 => ⟨S1x1, .f32⟩
  | 122 => ⟨S100000x1, .f32⟩
  | 123 => ⟨S100000x1, .f32⟩
  | 124 => ⟨S100000x1, .f32⟩
  | 125 => ⟨S100000x1, .f32⟩
  | 126 => ⟨S_, .f32⟩
  | 127 => ⟨S100000x1, .f32⟩
  | _ => ⟨S100000x512, .f32⟩

abbrev hbmTy0_1 (i : Nat) : BufTy := match i % 128 with
  | 0 => ⟨S100000x1, .f32⟩
  | 1 => ⟨S_, .f32⟩
  | 2 => ⟨S100000x1, .f32⟩
  | 3 => ⟨S100000x1, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_19 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_20 : Ref sig .tc := ⟨.hbm, 126, rfl⟩
abbrev main_v92 : Ref sig .tc := ⟨.hbm, 127, rfl⟩
abbrev main_v93 : Ref sig .tc := ⟨.hbm, 128, rfl⟩
abbrev main_cst_21 : Ref sig .tc := ⟨.hbm, 129, rfl⟩
abbrev main_v94 : Ref sig .tc := ⟨.hbm, 130, rfl⟩
abbrev main_v95 : Ref sig .tc := ⟨.hbm, 131, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x1_S100000x1_1_0_0_1_n_n_wf : DotDims.WF S100000x16 S16x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.KernelRun.lean ====
/-
  The idealized kernel program's run, with its result named.

  The program is four grid launches among stretches of host operations.  The buffer contents at each boundary are a fold
  from the launch memory: a host stretch applies its operations; a launch leaves its argument arrays as it found them and
  each output array at what its blocks' write-backs leave.  Every weakly fair execution terminates without a fault in a
  state whose every unscoped buffer holds the last boundary's contents.  Read at the result buffer this gives the value
  the program returns; read at the six arguments it gives that they end as launched.
-/
import proofs.«108875_j6476810682617_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the six argument arrays as launched. -/
theorem run_value : θ_run defs (onTc (τ := τ) (main (F := F))) ⟨m, fun _ => 0, ρ⟩ (fun r => ∀ c : Dev nD,
      r.2.mem ((c.tc : Thread nD τ).loc main_v86) = W11 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v86 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

end Cert.KernelIdeal.RunV

end
-- ==== Proof.RefStages.lean ====
/-
  The reference program's result as a composition of six array functions.

  The reference computes, from the node features x, two weight matrices, two bias vectors and the edge list e:
  the product x W1; the normalised neighbourhood sum of its rows over the graph with self loops (each edge weighted by
  the inverse square roots of the degrees of its two ends); the bias added and the rectifier; the product with W2; the
  same neighbourhood sum; the bias added and the logistic function, spelt 1 / (1 + e^(-x)).  The two neighbourhood sums
  are long chains of host operations (concatenations with an iota, a degree count by scatter-add, comparisons, gathers,
  a scatter-add); they are named here once as functions of the array they aggregate and of the two rows of the edge
  list, and the run's composed term is exactly the composition of the six named functions.
-/
import proofs.«108875_j6476810682617_1_alg».proof.Proof.RefRunP

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- Row 0 of the edge list as a vector: the edges' sources. -/
def srcOf (e : (⟨S2x3200000, .i32⟩ : BufTy).Contents (Elt F)) : (⟨S3200000, .i32⟩ : BufTy).Contents (Elt F) :=
  shapeCast _ (extractStridedSlice S1x3200000 ![0, 0] e slices_S2x3200000_S1x3200000_0_0) shapeCasts_S1x3200000_S3200000

/-- Row 1 of the edge list as a vector: the edges' targets. -/
def dstOf (e : (⟨S2x3200000, .i32⟩ : BufTy).Contents (Elt F)) : (⟨S3200000, .i32⟩ : BufTy).Contents (Elt F) :=
  shapeCast _ (extractStridedSlice S1x3200000 ![1, 0] e slices_S2x3200000_S1x3200000_1_0) shapeCasts_S1x3200000_S3200000

set_option maxRecDepth 8192 in
/-- The normalised neighbourhood sum of the rows of a 100000 x 16 array over the graph with self loops. -/
def agg16 (h : (⟨S100000x16, .f32⟩ : BufTy).Contents (Elt F)) (s d : (⟨S3200000, .i32⟩ : BufTy).Contents (Elt F)) : (⟨S100000x16, .f32⟩ : BufTy).Contents (Elt F) :=
  (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 (concatenate S3300000 0 [⟨S3200000, d⟩, ⟨S100000, (iotaInDim S100000 32 0)⟩] concatenates_S3200000_S100000_S3300000_d0)) (mulf (Host.gather gather_S100000x16_S3300000x1_S3300000x16_1_0_n_n_0_1_116 h (broadcastInDim S3300000x1 ![0] bcast_S3300000_S3300000x1_0 (select (cmpi .slt (concatenate S3300000 0 [⟨S3200000, s⟩, ⟨S100000, (iotaInDim S100000 32 0)⟩] concatenates_S3200000_S100000_S3300000_d0) (broadcastInDim S3300000 ![] bcast_S_S3300000 (constantI S_ 32 0#32))) (addi (concatenate S3300000 0 [⟨S3200000, s⟩, ⟨S100000, (iotaInDim S100000 32 0)⟩] concatenates_S3200000_S100000_S3300000_d0) (broadcastInDim S3300000 ![] bcast_S_S3300000 (constantI S_ 32 100000#32))) (concatenate S3300000 0 [⟨S3200000, s⟩, ⟨S100000, (iotaInDim S100000 32 0)⟩] concatenates_S3200000_S100000_S3300000_d0)))) (broadcastInDim S3300000x16 ![0, 1] bcast_S3300000x1_S3300000x16_0_1 (broadcastInDim S3300000x1 ![0] bcast_S3300000_S3300000x1_0 (mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, d⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, d⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, s⟩, ⟨S100000, (iotaInDim S100000 32 0)⟩] concatenates_S3200000_S100000_S3300000_d0) (broadcastInDim S3300000 ![] bcast_S_S3300000 (constantI S_ 32 0#32))) (addi (concatenate S3300000 0 [⟨S3200000, s⟩, ⟨S100000, (iotaInDim S100000 32 0)⟩] concatenates_S3200000_S100000_S3300000_d0) (broadcastInDim S3300000 ![] bcast_S_S3300000 (constantI S_ 32 100000#32))) (concatenate S3300000 0 [⟨S3200000, s⟩, ⟨S100000, (iotaInDim S100000 32 0)⟩] concatenates_S3200000_S100000_S3300000_d0)))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, d⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, d⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, d⟩, ⟨S100000, (iotaInDim S100000 32 0)⟩] concatenates_S3200000_S100000_S3300000_d0) (broadcastInDim S3300000 ![] bcast_S_S3300000 (constantI S_ 32 0#32))) (addi (concatenate S3300000 0 [⟨S3200000, d⟩, ⟨S100000, (iotaInDim S100000 32 0)⟩] concatenates_S3200000_S100000_S3300000_d0) (broadcastInDim S3300000 ![] bcast_S_S3300000 (constantI S_ 32 100000#32))) (concatenate S3300000 0 [⟨S3200000, d⟩, ⟨S100000, (iotaInDim S100000 32 0)⟩] concatenates_S3200000_S100000_S3300000_d0)))))))))

set_option maxRecDepth 8192 in
/-- The normalised neighbourhood sum of the rows of a 100000 x 1 array over the graph with self loops. -/
def agg1 (h : (⟨S100000x1, .f32⟩ : BufTy).Contents (Elt F)) (s d : (⟨S3200000, .i32⟩ : BufTy).Contents (Elt F)) : (⟨S100000x1, .f32⟩ : BufTy).Contents (Elt F) :=
  (Host.scatterAdd scatter_S100000x1_S3300000x1_S3300000x1_1_0_0_1 (broadcastInDim S100000x1 ![] bcast_S_S100000x1 (constant S_ .f32 0x00000000#32)) (broadcastInDim S3300000x1 ![0] bcast_S3300000_S3300000x1_0 (concatenate S3300000 0 [⟨S3200000, d⟩, ⟨S100000, (iotaInDim S100000 32 0)⟩] concatenates_S3200000_S100000_S3300000_d0)) (mulf (Host.gather gather_S100000x1_S3300000x1_S3300000x1_1_0_n_n_0_1_11 h (broadcastInDim S3300000x1 ![0] bcast_S3300000_S3300000x1_0 (select (cmpi .slt (concatenate S3300000 0 [⟨S3200000, s⟩, ⟨S100000, (iotaInDim S100000 32 0)⟩] concatenates_S3200000_S100000_S3300000_d0) (broadcastInDim S3300000 ![] bcast_S_S3300000 (constantI S_ 32 0#32))) (addi (concatenate S3300000 0 [⟨S3200000, s⟩, ⟨S100000, (iotaInDim S100000 32 0)⟩] concatenates_S3200000_S100000_S3300000_d0) (broadcastInDim S3300000 ![] bcast_S_S3300000 (constantI S_ 32 100000#32))) (concatenate S3300000 0 [⟨S3200000, s⟩, ⟨S100000, (iotaInDim S100000 32 0)⟩] concatenates_S3200000_S100000_S3300000_d0)))) (broadcastInDim S3300000x1 ![0] bcast_S3300000_S3300000x1_0 (mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, d⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, d⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, s⟩, ⟨S100000, (iotaInDim S100000 32 0)⟩] concatenates_S3200000_S100000_S3300000_d0) (broadcastInDim S3300000 ![] bcast_S_S3300000 (constantI S_ 32 0#32))) (addi (concatenate S3300000 0 [⟨S3200000, s⟩, ⟨S100000, (iotaInDim S100000 32 0)⟩] concatenates_S3200000_S100000_S3300000_d0) (broadcastInDim S3300000 ![] bcast_S_S3300000 (constantI S_ 32 100000#32))) (concatenate S3300000 0 [⟨S3200000, s⟩, ⟨S100000, (iotaInDim S100000 32 0)⟩] concatenates_S3200000_S100000_S3300000_d0)))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, d⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, d⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, d⟩, ⟨S100000, (iotaInDim S100000 32 0)⟩] concatenates_S3200000_S100000_S3300000_d0) (broadcastInDim S3300000 ![] bcast_S_S3300000 (constantI S_ 32 0#32))) (addi (concatenate S3300000 0 [⟨S3200000, d⟩, ⟨S100000, (iotaInDim S100000 32 0)⟩] concatenates_S3200000_S100000_S3300000_d0) (broadcastInDim S3300000 ![] bcast_S_S3300000 (constantI S_ 32 100000#32))) (concatenate S3300000 0 [⟨S3200000, d⟩, ⟨S100000, (iotaInDim S100000 32 0)⟩] concatenates_S3200000_S100000_S3300000_d0))))))))

/-- The first product. -/
def mm1 (a : (⟨S100000x512, .f32⟩ : BufTy).Contents (Elt F)) (w : (⟨S512x16, .f32⟩ : BufTy).Contents (Elt F)) : (⟨S100000x16, .f32⟩ : BufTy).Contents (Elt F) :=
  Host.dotGeneral dot_S100000x512_S512x16_S100000x16_1_0_0_1_n_n none a w

/-- The bias vector added to every row, then the rectifier. -/
def act1 (a : (⟨S100000x16, .f32⟩ : BufTy).Contents (Elt F)) (b : (⟨S16, .f32⟩ : BufTy).Contents (Elt F)) : (⟨S100000x16, .f32⟩ : BufTy).Contents (Elt F) :=
  maximumf (addf a (broadcastInDim S100000x16 ![0, 1] bcast_S1x16_S100000x16_0_1 (broadcastInDim S1x16 ![1] bcast_S16_S1x16_1 b))) (broadcastInDim S100000x16 ![] bcast_S_S100000x16 (constant S_ .f32 0x00000000#32))

/-- The second product. -/
def mm2 (a : (⟨S100000x16, .f32⟩ : BufTy).Contents (Elt F)) (w : (⟨S16x1, .f32⟩ : BufTy).Contents (Elt F)) : (⟨S100000x1, .f32⟩ : BufTy).Contents (Elt F) :=
  Host.dotGeneral dot_S100000x16_S16x1_S100000x1_1_0_0_1_n_n none a w

/-- The bias added to every row, then the logistic function as the host spells it, 1 / (1 + e^(-x)). -/
def act2 (a : (⟨S100000x1, .f32⟩ : BufTy).Contents (Elt F)) (b : (⟨S1, .f32⟩ : BufTy).Contents (Elt F)) : (⟨S100000x1, .f32⟩ : BufTy).Contents (Elt F) :=
  Host.divf (broadcastInDim S100000x1 ![] bcast_S_S100000x1 (constant S_ .f32 0x3F800000#32)) (addf (broadcastInDim S100000x1 ![] bcast_S_S100000x1 (constant S_ .f32 0x3F800000#32)) (Host.exp (Host.negf (addf a (broadcastInDim S100000x1 ![0, 1] bcast_S1x1_S100000x1_0_1 (broadcastInDim S1x1 ![1] bcast_S1_S1x1_1 b))))))

set_option maxRecDepth 8192 in
/-- The run's composed term is the composition of the six functions. -/
theorem res_eq (m : (ℓ : Loc nD τ sig) → Buf (Elt F) ℓ) (c : Dev nD) :
    Cert.ReferenceIdeal.ValueP.res_main_v95 m c
      = act2 (agg1 (mm2 (act1 (agg16 (mm1 (m ((c.tc : Thread nD τ).loc main_arg0)) (m ((c.tc : Thread nD τ).loc main_arg1)))
            (srcOf (m ((c.tc : Thread nD τ).loc main_arg5))) (dstOf (m ((c.tc : Thread nD τ).loc main_arg5))))
          (m ((c.tc : Thread nD τ).loc main_arg2))) (m ((c.tc : Thread nD τ).loc main_arg3)))
        (srcOf (m ((c.tc : Thread nD τ).loc main_arg5))) (dstOf (m ((c.tc : Thread nD τ).loc main_arg5))))
        (m ((c.tc : Thread nD τ).loc main_arg4)) := by
  unfold Cert.ReferenceIdeal.ValueP.res_main_v95 act2 agg1 mm2 act1 agg16 mm1 srcOf dstOf
  rfl

end Cert.ReferenceIdeal.Stages

end
-- ==== Proof.KernelHost.lean ====
/-
  The idealized kernel program's host stretches, read at the buffers the launches take.

  Between its launches the program applies host operations to the buffers.  From ANY buffer contents W:
  the first stretch cuts the edge list into its two rows; the stretch before the second launch computes the normalised
  neighbourhood sum of the first product over the graph (the same chain of operations as the reference's) and lays the
  first bias vector out as a one-row matrix; the stretch before the fourth launch computes the neighbourhood sum of the
  second product and lays the second bias out as a 1 x 1 matrix.  The buffers these stretches do not write keep their
  contents.
-/
import proofs.«108875_j6476810682617_1_alg».proof.Proof.Gen.KernelIdeal.Launch
import proofs.«108875_j6476810682617_1_alg».proof.Proof.RefStages
import Idealize.ShloMosaic.Lib.StableHlo.Run

set_option maxRecDepth 8192

noncomputable section

namespace Cert.KernelIdeal.HostV

open Cert.KernelIdeal Cert.KernelIdeal.Gen Idealize.ShloMosaic Idealize.ShloMosaic.TcCoe Idealize.SL.Sem Idealize.ShloMosaic.StableHlo

variable {F : FTy → Type} [FloatOps F]
variable (W : Valuation τ sig (Elt F))

/-! ## Before the first launch -/

theorem pre0_src : after hostOps0 W (Proc.devRef .tc main_v1) = Cert.ReferenceIdeal.Stages.srcOf (W (Proc.devRef .tc main_arg5)) := by
  simp only [hostOps0]; after_results_simp; rfl
theorem pre0_dst : after hostOps0 W (Proc.devRef .tc main_v3) = Cert.ReferenceIdeal.Stages.dstOf (W (Proc.devRef .tc main_arg5)) := by
  simp only [hostOps0]; after_results_simp; rfl
theorem pre0_arg0 : after hostOps0 W (Proc.devRef .tc main_arg0) = W (Proc.devRef .tc main_arg0) := by
  simp only [hostOps0]; after_results_simp
theorem pre0_arg1 : after hostOps0 W (Proc.devRef .tc main_arg1) = W (Proc.devRef .tc main_arg1) := by
  simp only [hostOps0]; after_results_simp
theorem pre0_arg2 : after hostOps0 W (Proc.devRef .tc main_arg2) = W (Proc.devRef .tc main_arg2) := by
  simp only [hostOps0]; after_results_simp
theorem pre0_arg3 : after hostOps0 W (Proc.devRef .tc main_arg3) = W (Proc.devRef .tc main_arg3) := by
  simp only [hostOps0]; after_results_simp
theorem pre0_arg4 : after hostOps0 W (Proc.devRef .tc main_arg4) = W (Proc.devRef .tc main_arg4) := by
  simp only [hostOps0]; after_results_simp

/-! ## Between the first and the second launch -/

/-- The three stretches between the first and the second launch, in order. -/
abbrev mid1 : Valuation τ sig (Elt F) := after hostOps1_2 (after hostOps1_1 (after hostOps1 W))

set_option maxHeartbeats 4000000 in
theorem mid1_agg : mid1 W (Proc.devRef .tc main_v43)
    = Cert.ReferenceIdeal.Stages.agg16 (W (Proc.devRef .tc main_v4)) (W (Proc.devRef .tc main_v1)) (W (Proc.devRef .tc main_v3)) := by
  simp only [mid1, hostOps1, hostOps1_1, hostOps1_2]; after_results_simp; rfl
theorem mid1_bias : mid1 W (Proc.devRef .tc main_v44) = shapeCast S1x16 (W (Proc.devRef .tc main_arg2)) shapeCasts_S16_S1x16 := by
  simp only [mid1, hostOps1, hostOps1_1, hostOps1_2]; after_results_simp; rfl
theorem mid1_src : mid1 W (Proc.devRef .tc main_v1) = W (Proc.devRef .tc main_v1) := by
  simp only [mid1, hostOps1, hostOps1_1, hostOps1_2]; after_results_simp
theorem mid1_dst : mid1 W (Proc.devRef .tc main_v3) = W (Proc.devRef .tc main_v3) := by
  simp only [mid1, hostOps1, hostOps1_1, hostOps1_2]; after_results_simp
theorem mid1_arg3 : mid1 W (Proc.devRef .tc main_arg3) = W (Proc.devRef .tc main_arg3) := by
  simp only [mid1, hostOps1, hostOps1_1, hostOps1_2]; after_results_simp
theorem mid1_arg4 : mid1 W (Proc.devRef .tc main_arg4) = W (Proc.devRef .tc main_arg4) := by
  simp only [mid1, hostOps1, hostOps1_1, hostOps1_2]; after_results_simp

/-! ## Between the third and the fourth launch -/

/-- The three stretches between the third and the fourth launch, in order. -/
abbrev mid3 : Valuation τ sig (Elt F) := after hostOps3_2 (after hostOps3_1 (after hostOps3 W))

set_option maxHeartbeats 4000000 in
theorem mid3_agg : mid3 W (Proc.devRef .tc main_v84)
    = Cert.ReferenceIdeal.Stages.agg1 (W (Proc.devRef .tc main_v46)) (W (Proc.devRef .tc main_v1)) (W (Proc.devRef .tc main_v3)) := by
  simp only [mid3, hostOps3, hostOps3_1, hostOps3_2]; after_results_simp; rfl
theorem mid3_bias : mid3 W (Proc.devRef .tc main_v85) = shapeCast S1x1 (W (Proc.devRef .tc main_arg4)) shapeCasts_S1_S1x1 := by
  simp only [mid3, hostOps3, hostOps3_1, hostOps3_2]; after_results_simp; rfl

end Cert.KernelIdeal.HostV

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibPlainLists.lean ====
/-
  A record of dimension numbers whose six lists are those of the plain product  [n, K] x [K, w] -> [n, w]  (left
  contracted on axis 1, right on axis 0, the result's axes the left's axis 0 then the right's axis 1, no batch axes)
  has the six index facts of a plain product: one contracted axis of extent K, and the operands read at
  (p, k) and (k, q) for the result's entry (p, q) and contraction position k.
-/
import proofs.«108875_j6476810682617_1_alg».proof.Proof.LibMatmulSum

noncomputable section

namespace Cert.LibMatmulSum

open Idealize.ShloMosaic

theorem Plain.of_lists {n K w : ℕ} (d : DotDims ⟨2, ![n, K]⟩ ⟨2, ![K, w]⟩ ⟨2, ![n, w]⟩)
    (hlc : d.lhsContracting = [1]) (hrc : d.rhsContracting = [0]) (hln : d.lhsNonContracting = [0])
    (hrn : d.rhsNonContracting = [1]) (hlb : d.lhsBatch = []) (hrb : d.rhsBatch = []) : Plain d := by
  have hrank : d.contr.rank = 1 := by rw [d.rank_contr, hlc]; rfl
  have keyI : ∀ (i : (⟨2, ![n, w]⟩ : Shape).Idx) (p q : Nat) (hp : p < 2) (hq : q < 2), p = q → (i ⟨p, hp⟩).val = (i ⟨q, hq⟩).val :=
    fun i p q hp hq h => by subst h; rfl
  have keyK : ∀ (k : d.contr.Idx) (p q : Nat) (hp : p < d.contr.rank) (hq : q < d.contr.rank), p = q → (k ⟨p, hp⟩).val = (k ⟨q, hq⟩).val :=
    fun k p q hp hq h => by subst h; rfl
  refine ⟨hrank, ?_, ?_, ?_, ?_, ?_⟩
  · have h0 : 0 < d.lhsContracting.length := by rw [hlc]; exact Nat.one_pos
    have e : d.lhsContracting[0] = (1 : Fin 2) := by simp [hlc]
    exact (d.size_contr 0 h0).trans (by rw [e]; rfl)
  · intro i q
    unfold DotDims.lhsIdx
    rw [dif_neg (by rw [hlb]; exact List.not_mem_nil), dif_pos (by rw [hln]; exact List.mem_singleton.mpr rfl)]
    simp only [Fin.val_cast]
    exact keyI i _ _ _ _ (by simp [hlb, hln])
  · intro i q
    unfold DotDims.lhsIdx
    rw [dif_neg (by rw [hlb]; exact List.not_mem_nil), dif_neg (by rw [hln]; exact fun h => absurd (show (1 : ℕ) = 0 from congrArg Fin.val (List.mem_singleton.mp h)) Nat.one_ne_zero)]
    simp only [Fin.val_cast]
    exact keyK q _ _ _ _ (by simp [hlc])
  · intro i q
    unfold DotDims.rhsIdx
    rw [dif_neg (by rw [hrb]; exact List.not_mem_nil), dif_neg (by rw [hrn]; exact fun h => absurd (show (0 : ℕ) = 1 from congrArg Fin.val (List.mem_singleton.mp h)) Nat.zero_ne_one)]
    simp only [Fin.val_cast]
    exact keyK q _ _ _ _ (by simp [hrc])
  · intro i q
    unfold DotDims.rhsIdx
    rw [dif_neg (by rw [hrb]; exact List.not_mem_nil), dif_pos (by rw [hrn]; exact List.mem_singleton.mpr rfl)]
    simp only [Fin.val_cast]
    exact keyI i _ _ _ _ (by simp [hlb, hln, hrn])

end Cert.LibMatmulSum

end
-- ==== Proof.Spec.lean ====
/-
  The array functions the graph network is made of, entry by entry on the extended reals, at any sizes:
  a matrix product (row p of the left factor against column q of the right one, summed over the inner position),
  a bias row added to every row and the result cut off below at a threshold value (the rectifier), and the same
  with the logistic function 1 / (1 + e^(-x)) in place of the cut-off; and a vector laid out as a one-row matrix.
-/
import Idealize.ShloMosaic.PureOps.Ideal
import Idealize.ShloMosaic.Lib.ValueIdx

noncomputable section

namespace Cert.Spec

open Idealize.ShloMosaic Idealize.ShloMosaic.ValueIdx

/-- Entry (p, q) of the product: the sum over k of left(p, k) * right(k, q). -/
def mm {n K w : ℕ} (A : (⟨2, ![n, K]⟩ : Shape).Idx → EReal) (B : (⟨2, ![K, w]⟩ : Shape).Idx → EReal) :
    (⟨2, ![n, w]⟩ : Shape).Idx → EReal :=
  fun i => ∑ k : Fin K, A (ix2 (i 0) k) * B (ix2 k (i 1))

theorem mm_ix2 {n K w : ℕ} (A : (⟨2, ![n, K]⟩ : Shape).Idx → EReal) (B : (⟨2, ![K, w]⟩ : Shape).Idx → EReal)
    (p : Fin n) (q : Fin w) : mm A B (ix2 p q) = ∑ k : Fin K, A (ix2 p k) * B (ix2 k q) := rfl

/-- Entry (p, q) of the rectified sum: max (a(p, q) + b(0, q)) z. -/
def biasMax {n w : ℕ} (z : EReal) (a : (⟨2, ![n, w]⟩ : Shape).Idx → EReal) (b : (⟨2, ![1, w]⟩ : Shape).Idx → EReal) :
    (⟨2, ![n, w]⟩ : Shape).Idx → EReal :=
  fun i => max (a i + b (ix2 (0 : Fin 1) (i 1))) z

theorem biasMax_ix2 {n w : ℕ} (z : EReal) (a : (⟨2, ![n, w]⟩ : Shape).Idx → EReal) (b : (⟨2, ![1, w]⟩ : Shape).Idx → EReal)
    (p : Fin n) (q : Fin w) : biasMax z a b (ix2 p q) = max (a (ix2 p q) + b (ix2 (0 : Fin 1) q)) z := rfl

/-- Entry (p, q) of the logistic of the sum: 1 / (1 + e^(-(a(p, q) + b(0, q)))). -/
def biasLogistic {n w : ℕ} (a : (⟨2, ![n, w]⟩ : Shape).Idx → EReal) (b : (⟨2, ![1, w]⟩ : Shape).Idx → EReal) :
    (⟨2, ![n, w]⟩ : Shape).Idx → EReal :=
  fun i => Ideal.logistic (a i + b (ix2 (0 : Fin 1) (i 1)))

theorem biasLogistic_ix2 {n w : ℕ} (a : (⟨2, ![n, w]⟩ : Shape).Idx → EReal) (b : (⟨2, ![1, w]⟩ : Shape).Idx → EReal)
    (p : Fin n) (q : Fin w) : biasLogistic a b (ix2 p q) = Ideal.logistic (a (ix2 p q) + b (ix2 (0 : Fin 1) q)) := rfl

/-- A vector as a one-row matrix: entry (0, q) is the vector's entry q. -/
def row1 {w : ℕ} (b : (⟨1, ![w]⟩ : Shape).Idx → EReal) : (⟨2, ![1, w]⟩ : Shape).Idx → EReal :=
  fun j => b (ix1 (j 1))

theorem row1_ix2 {w : ℕ} (b : (⟨1, ![w]⟩ : Shape).Idx → EReal) (u : Fin 1) (q : Fin w) : row1 b (ix2 u q) = b (ix1 q) := rfl

end Cert.Spec

end
-- ==== Proof.Region0.lean ====
/-
  The first launch: a matrix product computed block of rows by block of rows.

  The grid has 20 points.  At point t the body reads rows 5000 t .. 5000 t + 4999 of the left factor (a 100000 x 512
  array), the whole right factor (512 x 16), rounds both to a shorter float format (the identity on the extended reals),
  multiplies them into a zero accumulator and stores the 5000 x 16 product, which is written back as rows
  5000 t .. 5000 t + 4999 of the output.  Entry (p, q) of the block is the sum over k of left(5000 t + p, k) * right(k, q):
  the block is the restriction of the product of the whole arrays, and since the 20 blocks tile the output the output
  array ends as that product.
-/
import proofs.«108875_j6476810682617_1_alg».proof.Proof.Gen.KernelIdeal.Frame
import proofs.«108875_j6476810682617_1_alg».proof.Proof.LibMatmulSum
import proofs.«108875_j6476810682617_1_alg».proof.Proof.LibPlainLists
import proofs.«108875_j6476810682617_1_alg».proof.Proof.Spec
import Idealize.ShloMosaic.Lib.Pipeline.Value
import Idealize.ShloMosaic.Lib.ValueIdx

set_option maxRecDepth 16384

noncomputable section

namespace Cert.KernelIdeal.Reg0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q): the sum over k of the loaded left block at (p, k) times the loaded right
    factor at (k, q). -/
theorem pay_at (x0 : FVec Ideal S5000x512 .f32) (x1 : FVec Ideal S512x16 .f32) (p : Fin 5000) (q : Fin 16) :
    k0_pay1 (F := Ideal) x0 x1 (ix2 p q) = ∑ k : Fin 512, x0 (ix2 p k) * x1 (ix2 k q) := by
  unfold k0_pay1
  exact Cert.LibMatmulSum.matmul_zero_at
    (Cert.LibMatmulSum.Plain.of_lists dot_S5000x512_S512x16_S5000x16_1_0_0_1_n_n rfl rfl rfl rfl rfl rfl) none _ _ p q

/-- If row p of the loaded block is row P of the left array and the loaded right factor is the right array, the stored
    value at (p, q) is the whole product's entry (P, q). -/
theorem block_at (A : (⟨2, ![100000, 512]⟩ : Shape).Idx → EReal) (W : (⟨2, ![512, 16]⟩ : Shape).Idx → EReal)
    (x0 : FVec Ideal S5000x512 .f32) (x1 : FVec Ideal S512x16 .f32) (P : Fin 100000) (p : Fin 5000) (q : Fin 16)
    (h0 : ∀ k : Fin 512, x0 (ix2 p k) = A (ix2 P k)) (h1 : ∀ k : Fin 512, x1 (ix2 k q) = W (ix2 k q)) :
    k0_pay1 (F := Ideal) x0 x1 (ix2 p q) = Cert.Spec.mm A W (ix2 P q) := by
  rw [pay_at, Cert.Spec.mm_ix2]
  exact Finset.sum_congr rfl fun k _ => by rw [h0 k, h1 k]

/-- The block index maps over the grid: the left factor's and the output's blocks are block row t, the right factor's
    is the whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays as the launch finds them. -/
theorem flushed_eq (c : Dev nD) (t : Fin cfg0.N) :
    (dat0 V c).flushed 2 t = ((cfg0.win 2).blk t).view.read (Elt Ideal)
      (Cert.Spec.mm (n := 100000) (K := 512) (w := 16) (V c main_arg0) (V c main_arg1)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x16) hz]
  obtain ⟨e00, e01, e10, e11, e20, e21⟩ := idx_facts t
  have ht : t.val < 20 := lt_of_lt_of_eq t.isLt (N_0 : cfg0.N = 20)
  funext j
  obtain ⟨p, q, rfl⟩ : ∃ (p : Fin 5000) (q : Fin 16), j = ix2 p q := ⟨j 0, j 1, eq_ix2 j⟩
  have hp : t.val * 5000 + p.val < 100000 := by have := p.isLt; omega
  show k0_pay1 (F := Ideal) (iblk0 V c 0 t) (iblk0 V c 1 t) (ix2 p q)
    = Cert.Spec.mm (n := 100000) (K := 512) (w := 16) (V c main_arg0) (V c main_arg1) (((cfg0.win 2).blk t).view.emb (ix2 p q))
  have hemb : ((cfg0.win 2).blk t).view.emb (ix2 p q) = ix2 (⟨t.val * 5000 + p.val, hp⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 16 + 1 * q.val = q.val; omega
  rw [hemb]
  refine block_at _ _ _ _ ⟨t.val * 5000 + p.val, hp⟩ p q (fun k => ?_) (fun k => ?_)
  · show V c main_arg0 (((cfg0.win 0).blk t).view.emb (ix2 p k)) = V c main_arg0 (ix2 (⟨t.val * 5000 + p.val, hp⟩ : Fin 100000) k)
    have h : ((cfg0.win 0).blk t).view.emb (ix2 p k) = ix2 (⟨t.val * 5000 + p.val, hp⟩ : Fin 100000) k := by
      funext a; apply Fin.ext
      match a with
      | ⟨0, _⟩ => show win0_0.index t (0 : Fin 2) * 5000 + 1 * p.val = t.val * 5000 + p.val; omega
      | ⟨1, _⟩ => show win0_0.index t (1 : Fin 2) * 512 + 1 * k.val = k.val; omega
    rw [h]
  · show V c main_arg1 (((cfg0.win 1).blk t).view.emb (ix2 k q)) = V c main_arg1 (ix2 k q)
    have h : ((cfg0.win 1).blk t).view.emb (ix2 k q) = ix2 k q := by
      funext a; apply Fin.ext
      match a with
      | ⟨0, _⟩ => show win0_1.index t (0 : Fin 2) * 512 + 1 * k.val = k.val; omega
      | ⟨1, _⟩ => show win0_1.index t (1 : Fin 2) * 16 + 1 * q.val = q.val; omega
    rw [h]

/-- An index of the output array lies in point t's block iff each coordinate is in the block's range. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v4).slice (win0_2.rect t)).set ↔ _
  rw [View.set_slice_whole, Rect.mem_set_unit]
  exact Iff.rfl

/-- Every index of the output lies in the block of the point numbered by its row divided by 5000. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : (i 0).val / 5000 < cfg0.N := lt_of_lt_of_eq (by omega : (i 0).val / 5000 < 20) (N_0 : cfg0.N = 20).symm
  obtain ⟨-, -, -, -, e20, e21⟩ := idx_facts ⟨(i 0).val / 5000, hN⟩
  have e20' : win0_2.index ⟨(i 0).val / 5000, hN⟩ (0 : Fin 2) = (i 0).val / 5000 := e20
  refine ⟨⟨(i 0).val / 5000, hN⟩, flush0_2 _, ?_⟩
  rw [mem_blk]
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    rw [e20']; omega
  | ⟨1, _⟩ =>
    show win0_2.index ⟨(i 0).val / 5000, hN⟩ (1 : Fin 2) * 16 ≤ (i 1).val ∧ (i 1).val < win0_2.index ⟨(i 0).val / 5000, hN⟩ (1 : Fin 2) * 16 + 16
    rw [e21]; omega

/-- The output array after the launch is the product of the two arrays as the launch finds them. -/
theorem final (c : Dev nD) :
    (dat0 V c).arrAt 2 cfg0.N = Cert.Spec.mm (n := 100000) (K := 512) (w := 16) (V c main_arg0) (V c main_arg1) :=
  (dat0 V c).arrAt_eq_of_cover 2 _ (fun t _ => flushed_eq V c t) cover

end Cert.KernelIdeal.Reg0

end
-- ==== Proof.Region1.lean ====
/-
  The second launch: the bias row added and the rectifier, block of rows by block of rows.

  The grid has 20 points.  At point t the body reads rows 5000 t .. 5000 t + 4999 of a 100000 x 16 array and the whole
  1 x 16 bias row, repeats the row down the 5000 rows, adds, takes the maximum with the float zero and stores the
  result, which is written back as rows 5000 t .. 5000 t + 4999 of the output.  Entry (p, q) of the block is
  max (a(5000 t + p, q) + b(0, q)) 0: the block is the restriction of one function of the whole arrays, and since the
  20 blocks tile the output the output array ends as that function.
-/
import proofs.«108875_j6476810682617_1_alg».proof.Proof.Gen.KernelIdeal.Frame
import proofs.«108875_j6476810682617_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Reg1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q): the loaded block's entry plus the bias row's entry q, cut off below at the
    float zero. -/
theorem pay_at (x0 : FVec Ideal S5000x16 .f32) (x1 : FVec Ideal S1x16 .f32) (p : Fin 5000) (q : Fin 16) :
    k1_pay1 (F := Ideal) x0 x1 (ix2 p q) = max (x0 (ix2 p q) + x1 (ix2 (0 : Fin 1) q)) (Ideal.ofBits .f32 0x00000000#32) := by
  unfold k1_pay1
  rw [shapeCast_self, shapeCast_self]
  show max (x0 (ix2 p q) + broadcastTo S5000x16 x1 _ (ix2 p q)) _ = _
  rw [broadcastTo_1b_ab_apply]
  rfl

/-- If row p of the loaded block is row P of the array and the loaded bias row is the bias array, the stored value at
    (p, q) is the whole function's entry (P, q). -/
theorem block_at (A : (⟨2, ![100000, 16]⟩ : Shape).Idx → EReal) (B : (⟨2, ![1, 16]⟩ : Shape).Idx → EReal)
    (x0 : FVec Ideal S5000x16 .f32) (x1 : FVec Ideal S1x16 .f32) (P : Fin 100000) (p : Fin 5000) (q : Fin 16)
    (h0 : x0 (ix2 p q) = A (ix2 P q)) (h1 : x1 (ix2 (0 : Fin 1) q) = B (ix2 (0 : Fin 1) q)) :
    k1_pay1 (F := Ideal) x0 x1 (ix2 p q) = Cert.Spec.biasMax (Ideal.ofBits .f32 0x00000000#32) A B (ix2 P q) := by
  rw [pay_at, Cert.Spec.biasMax_ix2, h0, h1]

/-- The block index maps over the grid: the array's and the output's blocks are block row t, the bias row's is the
    whole array. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the rectified sum of the two arrays as the launch finds them. -/
theorem flushed_eq (c : Dev nD) (t : Fin cfg1.N) :
    (dat1 V c).flushed 2 t = ((cfg1.win 2).blk t).view.read (Elt Ideal)
      (Cert.Spec.biasMax (n := 100000) (w := 16) (Ideal.ofBits .f32 0x00000000#32) (V c main_v43) (V c main_v44)) := by
  show (cfg1.win 2).cut (grid1.coords t) ((dat1 V c).after 2 t) = _
  rw [after1_2]
  unfold out1_2
  rw [View.canon_unit_zero hz]
  simp only [View.ld_unit_zero (S := S5000x16) hz, View.ld_unit_zero (S := S1x16) hz]
  obtain ⟨e00, e01, e10, e11, e20, e21⟩ := idx_facts t
  have ht : t.val < 20 := lt_of_lt_of_eq t.isLt (N_1 : cfg1.N = 20)
  funext j
  obtain ⟨p, q, rfl⟩ : ∃ (p : Fin 5000) (q : Fin 16), j = ix2 p q := ⟨j 0, j 1, eq_ix2 j⟩
  have hp : t.val * 5000 + p.val < 100000 := by have := p.isLt; omega
  show k1_pay1 (F := Ideal) (iblk1 V c 0 t) (iblk1 V c 1 t) (ix2 p q)
    = Cert.Spec.biasMax (n := 100000) (w := 16) (Ideal.ofBits .f32 0x00000000#32) (V c main_v43) (V c main_v44) (((cfg1.win 2).blk t).view.emb (ix2 p q))
  have hemb : ((cfg1.win 2).blk t).view.emb (ix2 p q) = ix2 (⟨t.val * 5000 + p.val, hp⟩ : Fin 100000) q := by
    funext a; apply Fin.ext
    match a with
    | ⟨0, _⟩ => show win1_2.index t (0 : Fin 2) * 5000 + 1 * p.val = t.val * 5000 + p.val; omega
    | ⟨1, _⟩ => show win1_2.index t (1 : Fin 2) * 16 + 1 * q.val = q.val; omega
  rw [hemb]
  refine block_at _ _ _ _ ⟨t.val * 5000 + p.val, hp⟩ p q ?_ ?_
  · show V c main_v43 (((cfg1.win 0).blk t).view.emb (ix2 p q)) = V c main_v43 (ix2 (⟨t.val * 5000 + p.val, hp⟩ : Fin 100000) q)
    have h : ((cfg1.win 0).blk t).view.emb (ix2 p q) = ix2 (⟨t.val * 5000 + p.val, hp⟩ : Fin 100000) q := by
      funext a; apply Fin.ext
      match a with
      | ⟨0, _⟩ => show win1_0.index t (0 : Fin 2) * 5000 + 1 * p.val = t.val * 5000 + p.val; omega
      | ⟨1, _⟩ => show win1_0.index t (1 : Fin 2) * 16 + 1 * q.val = q.val; omega
    rw [h]
  · show V c main_v44 (((cfg1.win 1).blk t).view.emb (ix2 (0 : Fin 1) q)) = V c main_v44 (ix2 (0 : Fin 1) q)
    have h : ((cfg1.win 1).blk t).view.emb (ix2 (0 : Fin 1) q) = ix2 (0 : Fin 1) q := by
      funext a; apply Fin.ext
      match a with
      | ⟨0, _⟩ => show win1_1.index t (0 : Fin 2) * 1 + 1 * 0 = 0; omega
      | ⟨1, _⟩ => show win1_1.index t (1 : Fin 2) * 16 + 1 * q.val = q.val; omega
    rw [h]

/-- An index of the output array lies in point t's block iff each coordinate is in the block's range. -/
theorem mem_blk (t : Fin cfg1.N) (i : S100000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v45).slice (win1_2.rect t)).set ↔ _
  rw [View.set_slice_whole, Rect.mem_set_unit]
  exact Iff.rfl

/-- Every index of the output lies in the block of the point numbered by its row divided by 5000. -/
theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  have hN : (i 0).val / 5000 < cfg1.N := lt_of_lt_of_eq (by omega : (i 0).val / 5000 < 20) (N_1 : cfg1.N = 20).symm
  obtain ⟨-, -, -, -, e20, e21⟩ := idx_facts ⟨(i 0).val / 5000, hN⟩
  have e20' : win1_2.index ⟨(i 0).val / 5000, hN⟩ (0 : Fin 2) = (i 0).val / 5000 := e20
  refine ⟨⟨(i 0).val / 5000, hN⟩, flush1_2 _, ?_⟩
  rw [mem_blk]
  intro a
  match a with
  | ⟨0, _⟩ =>
    show win1_2.index ⟨(i 0).val / 5000, hN⟩ (0 : Fin 2) * 5000 ≤ (i 0).val ∧ (i 0).val < win1_2.index ⟨(i 0).val / 5000, hN⟩ (0 : Fin 2) * 5000 + 5000
    rw [e20']; omega
  | ⟨1, _⟩ =>
    show win1_2.index ⟨(i 0).val / 5000, hN⟩ (1 : Fin 2) * 16 ≤ (i 1).val ∧ (i 1).val < win1_2.index ⟨(i 0).val / 5000, hN⟩ (1 : Fin 2) * 16 + 16
    rw [e21]; omega

/-- The output array after the launch is the rectified sum of the two arrays as the launch finds them. -/
theorem final (c : Dev nD) :
    (dat1 V c).arrAt 2 cfg1.N = Cert.Spec.biasMax (n := 100000) (w := 16) (Ideal.ofBits .f32 0x00000000#32) (V c main_v43) (V c main_v44) :=
  (dat1 V c).arrAt_eq_of_cover 2 _ (fun t _ => flushed_eq V c t) cover

end Cert.KernelIdeal.Reg1

end
-- ==== Proof.Region2.lean ====
/-
  The third launch: the second matrix product, block of rows by block of rows.

  The grid has 20 points.  At point t the body reads rows 5000 t .. 5000 t + 4999 of the left factor (a 100000 x 16
  array), the whole right factor (16 x 1), rounds both to a shorter float format (the identity on the extended reals),
  multiplies them into a zero accumulator and stores the 5000 x 1 product, which is written back as rows
  5000 t .. 5000 t + 4999 of the output.  Entry (p, 0) of the block is the sum over k of left(5000 t + p, k) * right(k, 0):
  the block is the restriction of the product of the whole arrays, and since the 20 blocks tile the output the output
  array ends as that product.
-/
import proofs.«108875_j6476810682617_1_alg».proof.Proof.Gen.KernelIdeal.Frame
import proofs.«108875_j6476810682617_1_alg».proof.Proof.LibMatmulSum
import proofs.«108875_j6476810682617_1_alg».proof.Proof.LibPlainLists
import proofs.«108875_j6476810682617_1_alg».proof.Proof.Spec
import Idealize.ShloMosaic.Lib.Pipeline.Value
import Idealize.ShloMosaic.Lib.ValueIdx

set_option maxRecDepth 16384

noncomputable section

namespace Cert.KernelIdeal.Reg2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q): the sum over k of the loaded left block at (p, k) times the loaded right
    factor at (k, q). -/
theorem pay_at (x0 : FVec Ideal S5000x16 .f32) (x1 : FVec Ideal S16x1 .f32) (p : Fin 5000) (q : Fin 1) :
    k2_pay1 (F := Ideal) x0 x1 (ix2 p q) = ∑ k : Fin 16, x0 (ix2 p k) * x1 (ix2 k q) := by
  unfold k2_pay1
  rw [shapeCast_self]
  exact Cert.LibMatmulSum.matmul_zero_at
    (Cert.LibMatmulSum.Plain.of_lists dot_S5000x16_S16x1_S5000x1_1_0_0_1_n_n rfl rfl rfl rfl rfl rfl) none _ _ p q

/-- If row p of the loaded block is row P of the left array and the loaded right factor is the right array, the stored
    value at (p, q) is the whole product's entry (P, q). -/
theorem block_at (A : (⟨2, ![100000, 16]⟩ : Shape).Idx → EReal) (W : (⟨2, ![16, 1]⟩ : Shape).Idx → EReal)
    (x0 : FVec Ideal S5000x16 .f32) (x1 : FVec Ideal S16x1 .f32) (P : Fin 100000) (p : Fin 5000) (q : Fin 1)
    (h0 : ∀ k : Fin 16, x0 (ix2 p k) = A (ix2 P k)) (h1 : ∀ k : Fin 16, x1 (ix2 k q) = W (ix2 k q)) :
    k2_pay1 (F := Ideal) x0 x1 (ix2 p q) = Cert.Spec.mm A W (ix2 P q) := by
  rw [pay_at, Cert.Spec.mm_ix2]
  exact Finset.sum_congr rfl fun k _ => by rw [h0 k, h1 k]

/-- The block index maps over the grid: the left factor's and the output's blocks are block row t, the right factor's
    is the whole array. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the two arrays as the launch finds them. -/
theorem flushed_eq (c : Dev nD) (t : Fin cfg2.N) :
    (dat2 V c).flushed 2 t = ((cfg2.win 2).blk t).view.read (Elt Ideal)
      (Cert.Spec.mm (n := 100000) (K := 16) (w := 1) (V c main_v45) (V c main_arg3)) := by
  show (cfg2.win 2).cut (grid2.coords t) ((dat2 V c).after 2 t) = _
  rw [after2_2]
  unfold out2_2
  rw [View.canon_unit_zero hz]
  simp only [View.ld_unit_zero (S := S5000x16) hz, View.ld_unit_zero (S := S16x1) hz]
  obtain ⟨e00, e01, e10, e11, e20, e21⟩ := idx_facts t
  have ht : t.val < 20 := lt_of_lt_of_eq t.isLt (N_2 : cfg2.N = 20)
  funext j
  obtain ⟨p, q, rfl⟩ : ∃ (p : Fin 5000) (q : Fin 1), j = ix2 p q := ⟨j 0, j 1, eq_ix2 j⟩
  have hp : t.val * 5000 + p.val < 100000 := by have := p.isLt; omega
  show k2_pay1 (F := Ideal) (iblk2 V c 0 t) (iblk2 V c 1 t) (ix2 p q)
    = Cert.Spec.mm (n := 100000) (K := 16) (w := 1) (V c main_v45) (V c main_arg3) (((cfg2.win 2).blk t).view.emb (ix2 p q))
  have hemb : ((cfg2.win 2).blk t).view.emb (ix2 p q) = ix2 (⟨t.val * 5000 + p.val, hp⟩ : Fin 100000) q := by
    funext a; apply Fin.ext
    match a with
    | ⟨0, _⟩ => show win2_2.index t (0 : Fin 2) * 5000 + 1 * p.val = t.val * 5000 + p.val; omega
    | ⟨1, _⟩ => show win2_2.index t (1 : Fin 2) * 1 + 1 * q.val = q.val; omega
  rw [hemb]
  refine block_at _ _ _ _ ⟨t.val * 5000 + p.val, hp⟩ p q (fun k => ?_) (fun k => ?_)
  · show V c main_v45 (((cfg2.win 0).blk t).view.emb (ix2 p k)) = V c main_v45 (ix2 (⟨t.val * 5000 + p.val, hp⟩ : Fin 100000) k)
    have h : ((cfg2.win 0).blk t).view.emb (ix2 p k) = ix2 (⟨t.val * 5000 + p.val, hp⟩ : Fin 100000) k := by
      funext a; apply Fin.ext
      match a with
      | ⟨0, _⟩ => show win2_0.index t (0 : Fin 2) * 5000 + 1 * p.val = t.val * 5000 + p.val; omega
      | ⟨1, _⟩ => show win2_0.index t (1 : Fin 2) * 16 + 1 * k.val = k.val; omega
    rw [h]
  · show V c main_arg3 (((cfg2.win 1).blk t).view.emb (ix2 k q)) = V c main_arg3 (ix2 k q)
    have h : ((cfg2.win 1).blk t).view.emb (ix2 k q) = ix2 k q := by
      funext a; apply Fin.ext
      match a with
      | ⟨0, _⟩ => show win2_1.index t (0 : Fin 2) * 16 + 1 * k.val = k.val; omega
      | ⟨1, _⟩ => show win2_1.index t (1 : Fin 2) * 1 + 1 * q.val = q.val; omega
    rw [h]

/-- An index of the output array lies in point t's block iff each coordinate is in the block's range. -/
theorem mem_blk (t : Fin cfg2.N) (i : S100000x1.Idx) :
    i ∈ ((cfg2.win 2).blk t).view.set ↔ ∀ a : Fin 2, win2_2.index t a * S5000x1.size a ≤ (i a).val ∧ (i a).val < win2_2.index t a * S5000x1.size a + S5000x1.size a := by
  show i ∈ ((View.whole main_v46).slice (win2_2.rect t)).set ↔ _
  rw [View.set_slice_whole, Rect.mem_set_unit]
  exact Iff.rfl

/-- Every index of the output lies in the block of the point numbered by its row divided by 5000. -/
theorem cover (i : S100000x1.Idx) : ∃ t : Fin cfg2.N, (cfg2.win 2).flush t = true ∧ i ∈ ((cfg2.win 2).blk t).view.set := by
  have hi0 : (i 0).val < 100000 := (i 0).isLt
  have hi1 : (i 1).val < 1 := (i 1).isLt
  have hN : (i 0).val / 5000 < cfg2.N := lt_of_lt_of_eq (by omega : (i 0).val / 5000 < 20) (N_2 : cfg2.N = 20).symm
  obtain ⟨-, -, -, -, e20, e21⟩ := idx_facts ⟨(i 0).val / 5000, hN⟩
  have e20' : win2_2.index ⟨(i 0).val / 5000, hN⟩ (0 : Fin 2) = (i 0).val / 5000 := e20
  refine ⟨⟨(i 0).val / 5000, hN⟩, flush2_2 _, ?_⟩
  rw [mem_blk]
  intro a
  match a with
  | ⟨0, _⟩ =>
    show win2_2.index ⟨(i 0).val / 5000, hN⟩ (0 : Fin 2) * 5000 ≤ (i 0).val ∧ (i 0).val < win2_2.index ⟨(i 0).val / 5000, hN⟩ (0 : Fin 2) * 5000 + 5000
    rw [e20']; omega
  | ⟨1, _⟩ =>
    show win2_2.index ⟨(i 0).val / 5000, hN⟩ (1 : Fin 2) * 1 ≤ (i 1).val ∧ (i 1).val < win2_2.index ⟨(i 0).val / 5000, hN⟩ (1 : Fin 2) * 1 + 1
    rw [e21]; omega

/-- The output array after the launch is the product of the two arrays as the launch finds them. -/
theorem final (c : Dev nD) :
    (dat2 V c).arrAt 2 cfg2.N = Cert.Spec.mm (n := 100000) (K := 16) (w := 1) (V c main_v45) (V c main_arg3) :=
  (dat2 V c).arrAt_eq_of_cover 2 _ (fun t _ => flushed_eq V c t) cover

end Cert.KernelIdeal.Reg2

end
-- ==== Proof.Region3.lean ====
/-
  The fourth launch: the bias added and the logistic function, block of rows by block of rows.

  The grid has 20 points.  At point t the body reads rows 5000 t .. 5000 t + 4999 of a 100000 x 1 array and the 1 x 1
  bias, repeats the bias down the 5000 rows, adds, applies the logistic function 1 / (1 + e^(-x)) and stores the result,
  which is written back as rows 5000 t .. 5000 t + 4999 of the output.  Entry (p, 0) of the block is
  logistic (a(5000 t + p, 0) + b(0, 0)): the block is the restriction of one function of the whole arrays, and since
  the 20 blocks tile the output the output array ends as that function.
-/
import proofs.«108875_j6476810682617_1_alg».proof.Proof.Gen.KernelIdeal.Frame
import proofs.«108875_j6476810682617_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Reg3

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q): the logistic function of the loaded block's entry plus the bias. -/
theorem pay_at (x0 : FVec Ideal S5000x1 .f32) (x1 : FVec Ideal S1x1 .f32) (p : Fin 5000) (q : Fin 1) :
    k3_pay1 (F := Ideal) x0 x1 (ix2 p q) = Ideal.logistic (x0 (ix2 p q) + x1 (ix2 (0 : Fin 1) q)) := by
  unfold k3_pay1
  rw [shapeCast_self, shapeCast_self]
  show Ideal.logistic (x0 (ix2 p q) + broadcastTo S5000x1 x1 _ (ix2 p q)) = _
  rw [broadcastTo_1b_ab_apply]

/-- If row p of the loaded block is row P of the array and the loaded bias row is the bias array, the stored value at
    (p, q) is the whole function's entry (P, q). -/
theorem block_at (A : (⟨2, ![100000, 1]⟩ : Shape).Idx → EReal) (B : (⟨2, ![1, 1]⟩ : Shape).Idx → EReal)
    (x0 : FVec Ideal S5000x1 .f32) (x1 : FVec Ideal S1x1 .f32) (P : Fin 100000) (p : Fin 5000) (q : Fin 1)
    (h0 : x0 (ix2 p q) = A (ix2 P q)) (h1 : x1 (ix2 (0 : Fin 1) q) = B (ix2 (0 : Fin 1) q)) :
    k3_pay1 (F := Ideal) x0 x1 (ix2 p q) = Cert.Spec.biasLogistic A B (ix2 P q) := by
  rw [pay_at, Cert.Spec.biasLogistic_ix2, h0, h1]

/-- The block index maps over the grid: the array's and the output's blocks are block row t, the bias row's is the
    whole array. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the logistic of the sum of the two arrays as the launch finds them. -/
theorem flushed_eq (c : Dev nD) (t : Fin cfg3.N) :
    (dat3 V c).flushed 2 t = ((cfg3.win 2).blk t).view.read (Elt Ideal)
      (Cert.Spec.biasLogistic (n := 100000) (w := 1) (V c main_v84) (V c main_v85)) := by
  show (cfg3.win 2).cut (grid3.coords t) ((dat3 V c).after 2 t) = _
  rw [after3_2]
  unfold out3_2
  rw [View.canon_unit_zero hz]
  simp only [View.ld_unit_zero (S := S5000x1) hz, View.ld_unit_zero (S := S1x1) hz]
  obtain ⟨e00, e01, e10, e11, e20, e21⟩ := idx_facts t
  have ht : t.val < 20 := lt_of_lt_of_eq t.isLt (N_3 : cfg3.N = 20)
  funext j
  obtain ⟨p, q, rfl⟩ : ∃ (p : Fin 5000) (q : Fin 1), j = ix2 p q := ⟨j 0, j 1, eq_ix2 j⟩
  have hp : t.val * 5000 + p.val < 100000 := by have := p.isLt; omega
  show k3_pay1 (F := Ideal) (iblk3 V c 0 t) (iblk3 V c 1 t) (ix2 p q)
    = Cert.Spec.biasLogistic (n := 100000) (w := 1) (V c main_v84) (V c main_v85) (((cfg3.win 2).blk t).view.emb (ix2 p q))
  have hemb : ((cfg3.win 2).blk t).view.emb (ix2 p q) = ix2 (⟨t.val * 5000 + p.val, hp⟩ : Fin 100000) q := by
    funext a; apply Fin.ext
    match a with
    | ⟨0, _⟩ => show win3_2.index t (0 : Fin 2) * 5000 + 1 * p.val = t.val * 5000 + p.val; omega
    | ⟨1, _⟩ => show win3_2.index t (1 : Fin 2) * 1 + 1 * q.val = q.val; omega
  rw [hemb]
  refine block_at _ _ _ _ ⟨t.val * 5000 + p.val, hp⟩ p q ?_ ?_
  · show V c main_v84 (((cfg3.win 0).blk t).view.emb (ix2 p q)) = V c main_v84 (ix2 (⟨t.val * 5000 + p.val, hp⟩ : Fin 100000) q)
    have h : ((cfg3.win 0).blk t).view.emb (ix2 p q) = ix2 (⟨t.val * 5000 + p.val, hp⟩ : Fin 100000) q := by
      funext a; apply Fin.ext
      match a with
      | ⟨0, _⟩ => show win3_0.index t (0 : Fin 2) * 5000 + 1 * p.val = t.val * 5000 + p.val; omega
      | ⟨1, _⟩ => show win3_0.index t (1 : Fin 2) * 1 + 1 * q.val = q.val; omega
    rw [h]
  · show V c main_v85 (((cfg3.win 1).blk t).view.emb (ix2 (0 : Fin 1) q)) = V c main_v85 (ix2 (0 : Fin 1) q)
    have h : ((cfg3.win 1).blk t).view.emb (ix2 (0 : Fin 1) q) = ix2 (0 : Fin 1) q := by
      funext a; apply Fin.ext
      match a with
      | ⟨0, _⟩ => show win3_1.index t (0 : Fin 2) * 1 + 1 * 0 = 0; omega
      | ⟨1, _⟩ => show win3_1.index t (1 : Fin 2) * 1 + 1 * q.val = q.val; omega
    rw [h]

/-- An index of the output array lies in point t's block iff each coordinate is in the block's range. -/
theorem mem_blk (t : Fin cfg3.N) (i : S100000x1.Idx) :
    i ∈ ((cfg3.win 2).blk t).view.set ↔ ∀ a : Fin 2, win3_2.index t a * S5000x1.size a ≤ (i a).val ∧ (i a).val < win3_2.index t a * S5000x1.size a + S5000x1.size a := by
  show i ∈ ((View.whole main_v86).slice (win3_2.rect t)).set ↔ _
  rw [View.set_slice_whole, Rect.mem_set_unit]
  exact Iff.rfl

/-- Every index of the output lies in the block of the point numbered by its row divided by 5000. -/
theorem cover (i : S100000x1.Idx) : ∃ t : Fin cfg3.N, (cfg3.win 2).flush t = true ∧ i ∈ ((cfg3.win 2).blk t).view.set := by
  have hi0 : (i 0).val < 100000 := (i 0).isLt
  have hi1 : (i 1).val < 1 := (i 1).isLt
  have hN : (i 0).val / 5000 < cfg3.N := lt_of_lt_of_eq (by omega : (i 0).val / 5000 < 20) (N_3 : cfg3.N = 20).symm
  obtain ⟨-, -, -, -, e20, e21⟩ := idx_facts ⟨(i 0).val / 5000, hN⟩
  have e20' : win3_2.index ⟨(i 0).val / 5000, hN⟩ (0 : Fin 2) = (i 0).val / 5000 := e20
  refine ⟨⟨(i 0).val / 5000, hN⟩, flush3_2 _, ?_⟩
  rw [mem_blk]
  intro a
  match a with
  | ⟨0, _⟩ =>
    show win3_2.index ⟨(i 0).val / 5000, hN⟩ (0 : Fin 2) * 5000 ≤ (i 0).val ∧ (i 0).val < win3_2.index ⟨(i 0).val / 5000, hN⟩ (0 : Fin 2) * 5000 + 5000
    rw [e20']; omega
  | ⟨1, _⟩ =>
    show win3_2.index ⟨(i 0).val / 5000, hN⟩ (1 : Fin 2) * 1 ≤ (i 1).val ∧ (i 1).val < win3_2.index ⟨(i 0).val / 5000, hN⟩ (1 : Fin 2) * 1 + 1
    rw [e21]; omega

/-- The output array after the launch is the logistic of the sum of the two arrays as the launch finds them. -/
theorem final (c : Dev nD) :
    (dat3 V c).arrAt 2 cfg3.N = Cert.Spec.biasLogistic (n := 100000) (w := 1) (V c main_v84) (V c main_v85) :=
  (dat3 V c).arrAt_eq_of_cover 2 _ (fun t _ => flushed_eq V c t) cover

end Cert.KernelIdeal.Reg3

end
-- ==== Proof.KernelValue.lean ====
/-
  The value the idealized kernel program returns, as a function of its arguments.

  The buffer contents are followed from the launch memory to the result, one boundary at a time.  The first launch
  finds the features and the first weight matrix as launched and leaves their product; the host stretch after it
  aggregates that product over the graph and lays out the first bias; the second launch leaves the rectified sum; the
  third its product with the second weight matrix; the next host stretch aggregates again and lays out the second
  bias; the fourth launch leaves the logistic of the sum.  A launch changes none of the buffers that are not its
  output, and a host stretch none that it does not write, so the two rows of the edge list and the later arguments
  reach the places where they are read with the contents they were given.
-/
import proofs.«108875_j6476810682617_1_alg».proof.Proof.Gen.KernelIdeal.Frame
import proofs.«108875_j6476810682617_1_alg».proof.Proof.KernelHost
import proofs.«108875_j6476810682617_1_alg».proof.Proof.Region0
import proofs.«108875_j6476810682617_1_alg».proof.Proof.Region1
import proofs.«108875_j6476810682617_1_alg».proof.Proof.Region2
import proofs.«108875_j6476810682617_1_alg».proof.Proof.Region3

set_option maxRecDepth 16384

noncomputable section

namespace Cert.KernelIdeal.ValueK

open Cert.KernelIdeal Cert.KernelIdeal.Gen
open Idealize.ShloMosaic Idealize.ShloMosaic.TcCoe Idealize.ShloMosaic.ValueIdx
open Idealize.SL Idealize.SL.Sem
open Cert.ReferenceIdeal.Stages (srcOf dstOf agg16 agg1)

variable (m : (ℓ : Loc nD τ sig) → Buf (Elt Ideal) ℓ) (ρ : Dev nD → PrngReg) (c : Dev nD)

/-! ## At the first launch's entry -/

theorem V1_arg0 : V1 m ρ c main_arg0 = (m ((c : Thread nD τ).loc main_arg0)) := HostV.pre0_arg0 (W0 m ρ c)
theorem V1_arg1 : V1 m ρ c main_arg1 = (m ((c : Thread nD τ).loc main_arg1)) := HostV.pre0_arg1 (W0 m ρ c)
theorem W1_src : W1 m ρ c (Proc.devRef .tc main_v1) = srcOf (m ((c : Thread nD τ).loc main_arg5)) := HostV.pre0_src (W0 m ρ c)
theorem W1_dst : W1 m ρ c (Proc.devRef .tc main_v3) = dstOf (m ((c : Thread nD τ).loc main_arg5)) := HostV.pre0_dst (W0 m ρ c)
theorem W1_arg2 : W1 m ρ c (Proc.devRef .tc main_arg2) = (m ((c : Thread nD τ).loc main_arg2)) := HostV.pre0_arg2 (W0 m ρ c)
theorem W1_arg3 : W1 m ρ c (Proc.devRef .tc main_arg3) = (m ((c : Thread nD τ).loc main_arg3)) := HostV.pre0_arg3 (W0 m ρ c)
theorem W1_arg4 : W1 m ρ c (Proc.devRef .tc main_arg4) = (m ((c : Thread nD τ).loc main_arg4)) := HostV.pre0_arg4 (W0 m ρ c)

/-! ## At the first launch's exit -/

/-- The first product. -/
abbrev P1 := Cert.Spec.mm (n := 100000) (K := 512) (w := 16) (m ((c : Thread nD τ).loc main_arg0)) (m ((c : Thread nD τ).loc main_arg1))

theorem W2_v4 : W2 m ρ c (Proc.devRef .tc main_v4) = P1 m c :=
  (W2_arr m ρ c 2).trans ((Reg0.final (V1 m ρ) c).trans (by rw [V1_arg0, V1_arg1]))
theorem W2_src : W2 m ρ c (Proc.devRef .tc main_v1) = srcOf (m ((c : Thread nD τ).loc main_arg5)) := (W2_of_ne m ρ c main_v1 (by decide)).trans (W1_src m ρ c)
theorem W2_dst : W2 m ρ c (Proc.devRef .tc main_v3) = dstOf (m ((c : Thread nD τ).loc main_arg5)) := (W2_of_ne m ρ c main_v3 (by decide)).trans (W1_dst m ρ c)
theorem W2_arg2 : W2 m ρ c (Proc.devRef .tc main_arg2) = (m ((c : Thread nD τ).loc main_arg2)) := (W2_of_ne m ρ c main_arg2 (by decide)).trans (W1_arg2 m ρ c)
theorem W2_arg3 : W2 m ρ c (Proc.devRef .tc main_arg3) = (m ((c : Thread nD τ).loc main_arg3)) := (W2_of_ne m ρ c main_arg3 (by decide)).trans (W1_arg3 m ρ c)
theorem W2_arg4 : W2 m ρ c (Proc.devRef .tc main_arg4) = (m ((c : Thread nD τ).loc main_arg4)) := (W2_of_ne m ρ c main_arg4 (by decide)).trans (W1_arg4 m ρ c)

/-! ## At the second launch's entry -/

theorem V5_v43 : V5 m ρ c main_v43 = agg16 (P1 m c) (srcOf (m ((c : Thread nD τ).loc main_arg5))) (dstOf (m ((c : Thread nD τ).loc main_arg5))) :=
  (HostV.mid1_agg (W2 m ρ c)).trans (by rw [W2_v4, W2_src, W2_dst])
theorem V5_v44 : V5 m ρ c main_v44 = shapeCast S1x16 (m ((c : Thread nD τ).loc main_arg2)) shapeCasts_S16_S1x16 :=
  (HostV.mid1_bias (W2 m ρ c)).trans (by rw [W2_arg2])
theorem W5_src : W5 m ρ c (Proc.devRef .tc main_v1) = srcOf (m ((c : Thread nD τ).loc main_arg5)) := (HostV.mid1_src (W2 m ρ c)).trans (W2_src m ρ c)
theorem W5_dst : W5 m ρ c (Proc.devRef .tc main_v3) = dstOf (m ((c : Thread nD τ).loc main_arg5)) := (HostV.mid1_dst (W2 m ρ c)).trans (W2_dst m ρ c)
theorem W5_arg3 : W5 m ρ c (Proc.devRef .tc main_arg3) = (m ((c : Thread nD τ).loc main_arg3)) := (HostV.mid1_arg3 (W2 m ρ c)).trans (W2_arg3 m ρ c)
theorem W5_arg4 : W5 m ρ c (Proc.devRef .tc main_arg4) = (m ((c : Thread nD τ).loc main_arg4)) := (HostV.mid1_arg4 (W2 m ρ c)).trans (W2_arg4 m ρ c)

/-! ## At the second launch's exit -/

/-- The hidden layer: the aggregated first product plus the first bias, rectified. -/
abbrev H1 := Cert.Spec.biasMax (n := 100000) (w := 16) (Ideal.ofBits .f32 0x00000000#32)
  (agg16 (P1 m c) (srcOf (m ((c : Thread nD τ).loc main_arg5))) (dstOf (m ((c : Thread nD τ).loc main_arg5)))) (shapeCast S1x16 (m ((c : Thread nD τ).loc main_arg2)) shapeCasts_S16_S1x16)

theorem V6_v45 : V6 m ρ c main_v45 = H1 m c :=
  (W6_arr m ρ c 2).trans ((Reg1.final (V5 m ρ) c).trans (by rw [V5_v43, V5_v44]))
theorem V6_arg3 : V6 m ρ c main_arg3 = (m ((c : Thread nD τ).loc main_arg3)) := (W6_of_ne m ρ c main_arg3 (by decide)).trans (W5_arg3 m ρ c)
theorem W6_src : W6 m ρ c (Proc.devRef .tc main_v1) = srcOf (m ((c : Thread nD τ).loc main_arg5)) := (W6_of_ne m ρ c main_v1 (by decide)).trans (W5_src m ρ c)
theorem W6_dst : W6 m ρ c (Proc.devRef .tc main_v3) = dstOf (m ((c : Thread nD τ).loc main_arg5)) := (W6_of_ne m ρ c main_v3 (by decide)).trans (W5_dst m ρ c)
theorem W6_arg4 : W6 m ρ c (Proc.devRef .tc main_arg4) = (m ((c : Thread nD τ).loc main_arg4)) := (W6_of_ne m ρ c main_arg4 (by decide)).trans (W5_arg4 m ρ c)

/-! ## At the third launch's exit -/

/-- The second product. -/
abbrev P2 := Cert.Spec.mm (n := 100000) (K := 16) (w := 1) (H1 m c) (m ((c : Thread nD τ).loc main_arg3))

theorem W7_v46 : W7 m ρ c (Proc.devRef .tc main_v46) = P2 m c :=
  (W7_arr m ρ c 2).trans ((Reg2.final (V6 m ρ) c).trans (by rw [V6_v45, V6_arg3]))
theorem W7_src : W7 m ρ c (Proc.devRef .tc main_v1) = srcOf (m ((c : Thread nD τ).loc main_arg5)) := (W7_of_ne m ρ c main_v1 (by decide)).trans (W6_src m ρ c)
theorem W7_dst : W7 m ρ c (Proc.devRef .tc main_v3) = dstOf (m ((c : Thread nD τ).loc main_arg5)) := (W7_of_ne m ρ c main_v3 (by decide)).trans (W6_dst m ρ c)
theorem W7_arg4 : W7 m ρ c (Proc.devRef .tc main_arg4) = (m ((c : Thread nD τ).loc main_arg4)) := (W7_of_ne m ρ c main_arg4 (by decide)).trans (W6_arg4 m ρ c)

/-! ## At the fourth launch's entry and exit -/

theorem V10_v84 : V10 m ρ c main_v84 = agg1 (P2 m c) (srcOf (m ((c : Thread nD τ).loc main_arg5))) (dstOf (m ((c : Thread nD τ).loc main_arg5))) :=
  (HostV.mid3_agg (W7 m ρ c)).trans (by rw [W7_v46, W7_src, W7_dst])
theorem V10_v85 : V10 m ρ c main_v85 = shapeCast S1x1 (m ((c : Thread nD τ).loc main_arg4)) shapeCasts_S1_S1x1 :=
  (HostV.mid3_bias (W7 m ρ c)).trans (by rw [W7_arg4])

/-- The program's result: the logistic of the aggregated second product plus the second bias. -/
theorem W11_v86 : W11 m ρ c (Proc.devRef .tc main_v86)
    = Cert.Spec.biasLogistic (n := 100000) (w := 1) (agg1 (P2 m c) (srcOf (m ((c : Thread nD τ).loc main_arg5))) (dstOf (m ((c : Thread nD τ).loc main_arg5)))) (shapeCast S1x1 (m ((c : Thread nD τ).loc main_arg4)) shapeCasts_S1_S1x1) :=
  (W11_arr m ρ c 2).trans ((Reg3.final (V10 m ρ) c).trans (by rw [V10_v84, V10_v85]))

end Cert.KernelIdeal.ValueK

end
-- ==== Proof.LibHostDotSum.lean ====
/-
  The host's matrix product  [n, K] x [K, w] -> [n, w]  (a dot_general contracting the left operand's axis 1 with the
  right operand's axis 0) at the ideal values, read at entry (p, q): the sum over k < K of left(p, k) * right(k, q), for any
  sizes and whichever record of dimension numbers spells the product (the six index facts of a plain product).
-/
import proofs.«108875_j6476810682617_1_alg».proof.Proof.LibMatmulSum

noncomputable section

namespace Cert.LibMatmulSum

open Idealize.ShloMosaic Idealize.ShloMosaic.ValueIdx

/-- The host's plain matrix product at entry (p, q). -/
theorem hostDot_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    Host.dotGeneral d prec l r (ix2 p q) = ∑ k : Fin K, l (ix2 p k) * r (ix2 k q) := by
  simp only [Host.dotGeneral]
  rw [Ideal.dotGeneral_apply]
  exact sum_eq hd l r p q

end Cert.LibMatmulSum

end
-- ==== Proof.LibHostRows.lean ====
/-
  Three readings at an index, at any extents: a vector laid out as a one-row matrix and then repeated down the
  rows reads, at row r and column t, the vector's entry t; and the host's sum of a matrix over its rows, read at
  column c, is the initial value plus the sum over the rows of the entries of column c.
-/
import Idealize.ShloMosaic.Lib.IdealHost
import Idealize.ShloMosaic.Lib.KernelVsHost

noncomputable section

namespace Cert.LibHostRows

open Idealize.ShloMosaic Idealize.ShloMosaic.ValueIdx

/-- A vector as a one-row matrix: entry (0, t) is the vector's entry t. -/
theorem oneRow_apply {α : Type} {n : ℕ} (h : (⟨1, ![n]⟩ : Shape).BroadcastsInDim ⟨2, ![1, n]⟩ ![1])
    (v : (⟨1, ![n]⟩ : Shape).Idx → α) (t : Fin n) :
    broadcastInDim ⟨2, ![1, n]⟩ ![1] h v (ix2 (0 : Fin 1) t) = v (ix1 t) := by
  refine broadcastInDim_apply ![1] h v (ix2 (0 : Fin 1) t) (ix1 t) ?_
  intro a
  match a with
  | ⟨0, _⟩ =>
    show t.val = if n = 1 then 0 else t.val
    split
    · have := t.isLt; omega
    · rfl

/-- A vector repeated down m rows through the one-row matrix: entry (r, t) is the vector's entry t. -/
theorem downRows_apply {α : Type} {m n : ℕ} (h1 : (⟨1, ![n]⟩ : Shape).BroadcastsInDim ⟨2, ![1, n]⟩ ![1])
    (h2 : (⟨2, ![1, n]⟩ : Shape).BroadcastsInDim ⟨2, ![m, n]⟩ ![0, 1]) (v : (⟨1, ![n]⟩ : Shape).Idx → α) (r : Fin m) (t : Fin n) :
    broadcastInDim ⟨2, ![m, n]⟩ ![0, 1] h2 (broadcastInDim ⟨2, ![1, n]⟩ ![1] h1 v) (ix2 r t) = v (ix1 t) :=
  (broadcastInDim_oneRow_apply h2 _ r t).trans (oneRow_apply h1 v t)

/-- The host's sum of an m × n matrix over its rows, at column c: the initial value plus the sum over the rows. -/
theorem sumRows_apply {m n : ℕ} {φ : FTy} {u : Shape} (X : FVec Ideal ⟨2, ![m, n]⟩ φ) (init : u.Idx → Ideal φ)
    (h' : (⟨2, ![m, n]⟩ : Shape).ReducesTo [0] ⟨1, ![n]⟩) (hu : 0 < u.numel) (c : Fin n) :
    Host.reduceAdd X init h' hu (ix1 c) = init (Shape.Idx.first hu) + ∑ k : Fin m, X (ix2 k c) := by
  have h : (⟨2, ![m, n]⟩ : Shape).Reduces [0] ⟨1, ![n]⟩ := ⟨h'.1, Nat.one_pos, h'.2⟩
  show Ideal.hostReduceAdd h' X _ (ix1 c) = _
  rw [Ideal.hostReduceAdd_single h' h]
  refine congrArg (_ + ·) (Finset.sum_congr rfl fun k _ => ?_)
  refine congrArg X (funext fun a => Fin.ext ?_)
  match a with
  | ⟨0, _⟩ => rfl
  | ⟨1, _⟩ => rfl

end Cert.LibHostRows

end
-- ==== Proof.RefRead.lean ====
/-
  The reference's four pointwise and product stages, entry by entry on the extended reals.

  The host's matrix product is the sum over the inner position; a bias vector laid out as a one-row matrix and repeated
  down the rows adds the vector's entry q to column q; the host's rectifier is the maximum with the float zero; and the
  host's spelling of the logistic function, 1 / (1 + e^(-x)) with the float one, is the logistic function.
-/
import proofs.«108875_j6476810682617_1_alg».proof.Proof.RefStages
import proofs.«108875_j6476810682617_1_alg».proof.Proof.Spec
import proofs.«108875_j6476810682617_1_alg».proof.Proof.LibMatmulSum
import proofs.«108875_j6476810682617_1_alg».proof.Proof.LibPlainLists
import proofs.«108875_j6476810682617_1_alg».proof.Proof.LibHostDotSum
import proofs.«108875_j6476810682617_1_alg».proof.Proof.LibHostRows
import Idealize.ShloMosaic.Lib.IdealHost
import Idealize.ShloMosaic.Lib.ValueIdx

noncomputable section

namespace Cert.ReferenceIdeal.Stages

open Cert.ReferenceIdeal Cert.ReferenceIdeal.Gen Idealize.ShloMosaic Idealize.ShloMosaic.TcCoe Idealize.ShloMosaic.ValueIdx

/-- The first product, entry by entry. -/
theorem mm1_eq (a : FVec Ideal S100000x512 .f32) (w : FVec Ideal S512x16 .f32) :
    mm1 (F := Ideal) a w = Cert.Spec.mm (n := 100000) (K := 512) (w := 16) a w := by
  funext i
  obtain ⟨p, q, rfl⟩ : ∃ (p : Fin 100000) (q : Fin 16), i = ix2 p q := ⟨i 0, i 1, eq_ix2 i⟩
  unfold mm1
  exact Cert.LibMatmulSum.hostDot_at
    (Cert.LibMatmulSum.Plain.of_lists dot_S100000x512_S512x16_S100000x16_1_0_0_1_n_n rfl rfl rfl rfl rfl rfl) none a w p q

/-- The second product, entry by entry. -/
theorem mm2_eq (a : FVec Ideal S100000x16 .f32) (w : FVec Ideal S16x1 .f32) :
    mm2 (F := Ideal) a w = Cert.Spec.mm (n := 100000) (K := 16) (w := 1) a w := by
  funext i
  obtain ⟨p, q, rfl⟩ : ∃ (p : Fin 100000) (q : Fin 1), i = ix2 p q := ⟨i 0, i 1, eq_ix2 i⟩
  unfold mm2
  exact Cert.LibMatmulSum.hostDot_at
    (Cert.LibMatmulSum.Plain.of_lists dot_S100000x16_S16x1_S100000x1_1_0_0_1_n_n rfl rfl rfl rfl rfl rfl) none a w p q

/-- The bias added to every row and the rectifier, entry by entry. -/
theorem act1_eq (a : FVec Ideal S100000x16 .f32) (b : FVec Ideal S16 .f32) :
    act1 (F := Ideal) a b = Cert.Spec.biasMax (n := 100000) (w := 16) (Ideal.ofBits .f32 0x00000000#32) a (Cert.Spec.row1 b) := by
  funext i
  obtain ⟨p, q, rfl⟩ : ∃ (p : Fin 100000) (q : Fin 16), i = ix2 p q := ⟨i 0, i 1, eq_ix2 i⟩
  unfold act1
  show max (a (ix2 p q) + broadcastInDim S100000x16 ![0, 1] _ (broadcastInDim S1x16 ![1] _ b) (ix2 p q))
      (broadcastInDim S100000x16 ![] _ (constant (F := Ideal) S_ .f32 0x00000000#32) (ix2 p q)) = _
  rw [Cert.LibHostRows.downRows_apply, broadcastInDim_scalar_apply]
  rfl

/-- The bias added to every row and the logistic function, entry by entry. -/
theorem act2_eq (a : FVec Ideal S100000x1 .f32) (b : FVec Ideal S1 .f32) :
    act2 (F := Ideal) a b = Cert.Spec.biasLogistic (n := 100000) (w := 1) a (Cert.Spec.row1 b) := by
  funext i
  obtain ⟨p, q, rfl⟩ : ∃ (p : Fin 100000) (q : Fin 1), i = ix2 p q := ⟨i 0, i 1, eq_ix2 i⟩
  unfold act2
  show Ideal.div (broadcastInDim S100000x1 ![] _ (constant (F := Ideal) S_ .f32 0x3F800000#32) (ix2 p q))
      (broadcastInDim S100000x1 ![] _ (constant (F := Ideal) S_ .f32 0x3F800000#32) (ix2 p q)
        + Ideal.exp (-(a (ix2 p q) + broadcastInDim S100000x1 ![0, 1] _ (broadcastInDim S1x1 ![1] _ b) (ix2 p q)))) = _
  rw [Cert.LibHostRows.downRows_apply, broadcastInDim_scalar_apply]
  show Ideal.div (Ideal.ofBits .f32 0x3F800000#32) (Ideal.ofBits .f32 0x3F800000#32 + Ideal.exp (-(a (ix2 p q) + b (ix1 q)))) = _
  rw [Ideal.ofBits_one_f32]
  rfl

end Cert.ReferenceIdeal.Stages

end
-- ==== Proof.Bridge.lean ====
/-
  The two idealized programs return the same array.

  Both are the same composition on the extended reals: the product of the features with the first weight matrix, its
  normalised neighbourhood sum over the graph, the first bias added and the rectifier, the product with the second
  weight matrix, its neighbourhood sum, the second bias added and the logistic function.  The kernel program computes
  the two products, the rectified sum and the logistic in grid launches, block of rows by block of rows, and lays each
  bias out as a one-row matrix by a reshape; the reference does all of it on the host and lays the bias out by a
  broadcast.  Entry by entry the products are the same sums, the one-row layouts the same rows, and the host's
  1 / (1 + e^(-x)) the logistic function; the neighbourhood sums are the same chain of host operations applied to equal
  arrays.  No law of arithmetic beyond these readings is used, so nothing is asked of the inputs.
-/
import proofs.«108875_j6476810682617_1_alg».proof.Proof.KernelValue
import proofs.«108875_j6476810682617_1_alg».proof.Proof.RefRead
import Idealize.ShloMosaic.Lib.ValueLayout

set_option maxRecDepth 16384

noncomputable section

namespace Cert.Bridge

open Idealize.ShloMosaic Idealize.ShloMosaic.TcCoe Idealize.ShloMosaic.ValueIdx Idealize.SL.Sem

/-- A vector reshaped to a one-row matrix is the vector laid out as a row. -/
theorem shapeCast_row {w : ℕ} (b : (⟨1, ![w]⟩ : Shape).Idx → EReal) (h : (⟨1, ![w]⟩ : Shape).ShapeCasts ⟨2, ![1, w]⟩) :
    shapeCast ⟨2, ![1, w]⟩ b h = Cert.Spec.row1 b := by
  funext j
  obtain ⟨u, q, rfl⟩ : ∃ (u : Fin 1) (q : Fin w), j = ix2 u q := ⟨j 0, j 1, eq_ix2 j⟩
  exact shapeCast_a_1a_apply b h u q

open Cert.ReferenceIdeal.Stages in
/-- The reference run's result term, from a memory that agrees with the kernel program's on the six arguments, is
    what the kernel program's result buffer ends holding. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.ValueP.res_main_v95 (F := Ideal) m' c
      = Cert.KernelIdeal.Gen.W11 m ρ c (Proc.devRef .tc Cert.KernelIdeal.main_v86) := by
  rw [res_eq, h0, h1, h2, h3, h4, h5, mm1_eq, act1_eq, mm2_eq, act2_eq, Cert.KernelIdeal.ValueK.W11_v86]
  dsimp only [Cert.KernelIdeal.ValueK.P2, Cert.KernelIdeal.ValueK.H1, Cert.KernelIdeal.ValueK.P1]
  rw [shapeCast_row, shapeCast_row]

end Cert.Bridge

end
-- ==== Proof.lean ====
/-
  A two-layer graph convolution: the kernel program against its reference, on the extended reals.

  Both programs take node features x (100000 x 512), weights W1 (512 x 16) and W2 (16 x 1), biases b1 (16) and b2 (1) and
  an edge list (2 x 3200000), and return  logistic (A (relu (A (x W1) + b1) W2) + b2),  where A is the normalised
  neighbourhood sum over the graph with self loops.  The kernel program computes the two matrix products, the rectified
  sum and the logistic in four grid launches, 5000 rows at a time, with A as host operations between them; the reference
  does everything on the host.

  The three frame claims: the two kernel programs by their launch-by-launch runs, the reference by its run read back.
  Nothing was rewritten when the kernel program was idealized, so that claim is empty.  For the value claim each launch's
  output array is one function of its input arrays, entry by entry (a product is a sum over the inner position; the bias
  row is added to every row); the host stretches are the reference's own chain of operations; and the reference's
  products, bias broadcasts and its spelling 1 / (1 + e^(-x)) of the logistic read entry by entry as the same functions.
  The two results are then the same composition applied to equal arguments.
-/
import proofs.«108875_j6476810682617_1_alg».proof.Defs
import proofs.«108875_j6476810682617_1_alg».proof.Proof.Gen.Kernel
import proofs.«108875_j6476810682617_1_alg».proof.Proof.Gen.Kernel.Skeleton
import proofs.«108875_j6476810682617_1_alg».proof.Proof.Gen.Kernel.Launch
import proofs.«108875_j6476810682617_1_alg».proof.Proof.Gen.Kernel.Points
import proofs.«108875_j6476810682617_1_alg».proof.Proof.Gen.Kernel.Frame
import proofs.«108875_j6476810682617_1_alg».proof.Proof.Gen.KernelIdeal
import proofs.«108875_j6476810682617_1_alg».proof.Proof.Gen.KernelIdeal.Skeleton
import proofs.«108875_j6476810682617_1_alg».proof.Proof.Gen.KernelIdeal.Launch
import proofs.«108875_j6476810682617_1_alg».proof.Proof.Gen.KernelIdeal.Points
import proofs.«108875_j6476810682617_1_alg».proof.Proof.Gen.KernelIdeal.Frame
import proofs.«108875_j6476810682617_1_alg».proof.Proof.Gen.ReferenceIdeal
import proofs.«108875_j6476810682617_1_alg».proof.Proof.Gen.Pre_finite_inputs
import proofs.«108875_j6476810682617_1_alg».proof.Proof.KernelRun
import proofs.«108875_j6476810682617_1_alg».proof.Proof.RefRunP
import proofs.«108875_j6476810682617_1_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The idealized reference runs and leaves its arguments as launched: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the six arguments both idealized programs run, and the reference's result is the
    array the kernel program's result buffer ends holding. -/
theorem algebraic : Cert.algebraic_KernelIdeal_ReferenceIdeal := by
  intro m ρ m' ρ' _ hagree
  refine ⟨_, Cert.KernelIdeal.RunV.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  exact Cert.Bridge.result_eq m ρ m' c (hagree c).1 (hagree c).2.1 (hagree c).2.2.1 (hagree c).2.2.2.1
    (hagree c).2.2.2.2.1 (hagree c).2.2.2.2.2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
